-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x500 : Shape := ⟨2, ![12288, 500]⟩
abbrev S12288x12288 : Shape := ⟨2, ![12288, 12288]⟩
abbrev S500x64 : Shape := ⟨2, ![500, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S12288x500 : S_.BroadcastsInDim S12288x500 (![] : Fin 0 → Fin S12288x500.rank)
  reducesTo_S12288x500_S_d0_1 : S12288x500.ReducesTo [0, 1] S_
  h_S_ : 0 < S_.numel
  bcast_S_S12288x12288 : S_.BroadcastsInDim S12288x12288 (![] : Fin 0 → Fin S12288x12288.rank)
  reducesTo_S12288x12288_S_d0_1 : S12288x12288.ReducesTo [0, 1] S_
  bcast_S_S500x64 : S_.BroadcastsInDim S500x64 (![] : Fin 0 → Fin S500x64.rank)
  reducesTo_S500x64_S_d0_1 : S500x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64x16 .f32) (main_arg5 : FVec F S16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S12288x500 .f32) (main_arg1 : FVec F S12288x12288 .f32) (main_arg2 : FVec F S500x64 .f32) (main_arg3 : FVec F S64 .f32) (main_arg4 : FVec F S64x16 .f32) (main_arg5 : FVec F S16 .f32) : IVec S_ 1 :=
  let main_v0 : FVec F S12288x500 .f32 := Host.absf main_arg0
  let main_cst : FVec F S_ .f32 := constant S_ .f32 0x7F800000#32
  let main_v1 : FVec F S12288x500 .f32 := broadcastInDim S12288x500 ![] bcast_S_S12288x500 main_cst
  let main_v2 : IVec S12288x500 1 := cmpf .olt main_v0 main_v1
  let main_c : IVec S_ 1 := constantI S_ 1 1#1
  let main_v3 : IVec S_ 1 := (fun x v => Host.reduce IntOp.andi x v reducesTo_S12288x500_S_d0_1 h_S_) main_v2 main_c
  let main_v4 : FVec F S12288x12288 .f32 := Host.absf main_arg1
  let main_cst_0 : FVec F S_ .f32 := constant S_ .f32 0x7F800000#32
  let main_v5 : FVec F S12288x12288 .f32 := broadcastInDim S12288x12288 ![] bcast_S_S12288x12288 main_cst_0
  let main_v6 : IVec S12288x12288 1 := cmpf .olt main_v4 main_v5
  let main_c_1 : IVec S_ 1 := constantI S_ 1 1#1
  let main_v7 : IVec S_ 1 := (fun x v => Host.reduce IntOp.andi x v reducesTo_S12288x12288_S_d0_1 h_S_) main_v6 main_c_1
  let main_v8 : IVec S_ 1 := andi main_v3 main_v7
  let main_v9 : FVec F S500x64 .f32 := Host.absf main_arg2
  let main_cst_2 : FVec F S_ .f32 := constant S_ .f32 0x7F800000#32
  let main_v10 : FVec F S500x64 .f32 := broadcastInDim S500x64 ![] bcast_S_S500x64 main_cst_2
  let main_v11 : IVec S500x64 1 := cmpf .olt main_v9 main_v10
  let main_c_3 : IVec S_ 1 := constantI S_ 1 1#1
  let main_v12 : IVec S_ 1 := (fun x v => Host.reduce IntOp.andi x v reducesTo_S500x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S12288x500 : Shape := ⟨2, ![12288, 500]⟩
abbrev S12288x12288 : Shape := ⟨2, ![12288, 12288]⟩
abbrev S500x64 : Shape := ⟨2, ![500, 64]⟩
abbrev S64 : Shape := ⟨1, ![64]⟩
abbrev S64x16 : Shape := ⟨2, ![64, 16]⟩
abbrev S16 : Shape := ⟨1, ![16]⟩
abbrev S1x64 : Shape := ⟨2, ![1, 64]⟩
abbrev S12288x64 : Shape := ⟨2, ![12288, 64]⟩
abbrev S512x500 : Shape := ⟨2, ![512, 500]⟩
abbrev S512x64 : Shape := ⟨2, ![512, 64]⟩
abbrev S1x16 : Shape := ⟨2, ![1, 16]⟩
abbrev S12288x16 : Shape := ⟨2, ![12288, 16]⟩
abbrev S256x12288 : Shape := ⟨2, ![256, 12288]⟩
abbrev S256x16 : Shape := ⟨2, ![256, 16]⟩
abbrev S256x64 : Shape := ⟨2, ![256, 64]⟩
abbrev S256x3072 : Shape := ⟨2, ![256, 3072]⟩
abbrev S3072x64 : Shape := ⟨2, ![3072, 64]⟩
abbrev S3072x16 : Shape := ⟨2, ![3072, 16]⟩

abbrev nBuf : Space → Nat
  | .hbm => 11
  | .vmem => 18
  | .smem => 0
  | _ => 0

abbrev bufTy : (tb : Table) → Fin (tcTables nBuf tb) → BufTy
  | .hbm, ⟨0, _⟩ => ⟨S12288x500, .f32⟩
  | .hbm, ⟨1, _⟩ => ⟨S12288x12288, .f32⟩
  | .hbm, ⟨2, _⟩ => ⟨S500x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x64, .f32⟩
  | .hbm, ⟨7, _⟩ => ⟨S12288x64, .f32⟩
  | .hbm, ⟨8, _⟩ => ⟨S1x16, .f32⟩
  | .hbm, ⟨9, _⟩ => ⟨S12288x16, .f32⟩
  | .hbm, ⟨10, _⟩ => ⟨S12288x16, .f32⟩
  | .local _ .vmem, ⟨0, _⟩ => ⟨S512x500, .f32⟩
  | .local _ .vmem, ⟨1, _⟩ => ⟨S512x500, .f32⟩
  | .local _ .vmem, ⟨2, _⟩ => ⟨S500x64, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | .local _ .vmem, ⟨6, _⟩ => ⟨S256x12288, .f32⟩
  | .local _ .vmem, ⟨7, _⟩ => ⟨S256x12288, .f32⟩
  | .local _ .vmem, ⟨8, _⟩ => ⟨S12288x64, .f32⟩
  | .local _ .vmem, ⟨9, _⟩ => ⟨S64x16, .f32⟩
  | .local _ .vmem, ⟨10, _⟩ => ⟨S1x16, .f32⟩
  | .local _ .vmem, ⟨11, _⟩ => ⟨S256x16, .f32⟩
  | .local _ .vmem, ⟨12, _⟩ => ⟨S256x16, .f32⟩
  | .local _ .vmem, ⟨13, _⟩ => ⟨S256x12288, .f32⟩
  | .local _ .vmem, ⟨14, _⟩ => ⟨S256x12288, .f32⟩
  | .local _ .vmem, ⟨15, _⟩ => ⟨S12288x16, .f32⟩
  | .local _ .vmem, ⟨16, _⟩ => ⟨S256x16, .f32⟩
  | .local _ .vmem, ⟨17, _⟩ => ⟨S256x16, .f32⟩
  | _, _ => ⟨S12288x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![48], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x12288 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12288x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S64_S1x64 : S64.ShapeCasts S1x64
  inb_S512x500_S512x500_0_0 : ∀ a, (![0, 0] : Fin 2 → Nat) a + S512x500.size a ≤ S512x500.size a
  h_S512x500 : 0 < S512x500.numel
  bitsLt_bf16_f32 : FTy.bits .bf16 < FTy.bits .f32
  inb_S500x64_S500x64_0_0 : ∀ a, (![0, 0] : Fin 2 → Nat) a + S500x64.size a ≤ S500x64.size a
  h_S500x64 : 0 < S500x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  shapeCasts_S16_S1x16 : S16.ShapeCasts S1x16
  inb_S256x12288_S256x3072_0_0 : ∀ a, (![0, 0] : Fin 2 → Nat) a + S256x3072.size a ≤ S256x12288.size a
  h_S256x3072 : 0 < S256x3072.numel
  inb_S12288x64_S3072x64_0_0 : ∀ a, (![0, 0] : Fin 2 → Nat) a + S3072x64.size a ≤ S12288x64.size a
  h_S3072x64 : 0 < S3072x64.numel
  shapeCasts_S3072x64_S3072x64 : S3072x64.ShapeCasts S3072x64
  inb_S256x12288_S256x3072_0_3072 : ∀ a, (![0, 3072] : Fin 2 → Nat) a + S256x3072.size a ≤ S256x12288.size a
  inb_S12288x64_S3072x64_3072_0 : ∀ a, (![3072, 0] : Fin 2 → Nat) a + S3072x64.size a ≤ S12288x64.size a
  inb_S256x12288_S256x3072_0_6144 : ∀ a, (![0, 6144] : Fin 2 → Nat) a + S256x3072.size a ≤ S256x12288.size a
  inb_S12288x64_S3072x64_6144_0 : ∀ a, (![6144, 0] : Fin 2 → Nat) a + S3072x64.size a ≤ S12288x64.size a
  inb_S256x12288_S256x3072_0_9216 : ∀ a, (![0, 9216] : Fin 2 → Nat) a + S256x3072.size a ≤ S256x12288.size a
  inb_S12288x64_S3072x64_9216_0 : ∀ a, (![9216, 0] : Fin 2 → Nat) a + S3072x64.size a ≤ S12288x64.size a
  inb_S64x16_S64x16_0_0 : ∀ a, (![0, 0] : Fin 2 → Nat) a + S64x16.size a ≤ S64x16.size a
  h_S64x16 : 0 < S64x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  inb_S12288x16_S3072x16_0_0 : ∀ a, (![0, 0] : Fin 2 → Nat) a + S3072x16.size a ≤ S12288x16.size a
  h_S3072x16 : 0 < S3072x16.numel
  shapeCasts_S3072x16_S3072x16 : S3072x16.ShapeCasts S3072x16
  inb_S12288x16_S3072x16_3072_0 : ∀ a, (![3072, 0] : Fin 2 → Nat) a + S3072x16.size a ≤ S12288x16.size a
  inb_S12288x16_S3072x16_6144_0 : ∀ a, (![6144, 0] : Fin 2 → Nat) a + S3072x16.size a ≤ S12288x16.size a
  inb_S12288x16_S3072x16_9216_0 : ∀ a, (![9216, 0] : Fin 2 → Nat) a + S3072x16.size a ≤ S12288x16.size a
  dot_S512x500_S500x64_S512x64_1_0_0_1_n_n_wf : DotDims.WF S512x500 S500x64 S512x64 [1] [0] [0] [1] [] []
  dot_S256x3072_S3072x64_S256x64_1_0_0_1_n_n_wf : DotDims.WF S256x3072 S3072x64 S256x64 [1] [0] [0] [1] [] []
  dot_S256x64_S64x16_S256x16_1_0_0_1_n_n_wf : DotDims.WF S256x64 S64x16 S256x16 [1] [0] [0] [1] [] []
  dot_S256x3072_S3072x16_S256x16_1_0_0_1_n_n_wf : DotDims.WF S256x3072 S3072x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x500.size a ≤ S12288x500.size a
  hwx0_0 : ∀ i : grid0.Coords, EltTy.bits .f32 = 32 ∨ (Rect.block (s := S12288x500) S512x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x64.size a ≤ S500x64.size a
  hwx0_1 : ∀ i : grid0.Coords, EltTy.bits .f32 = 32 ∨ (Rect.block (s := S500x64) S500x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x64.size a ≤ S12288x64.size a
  hwx0_3 : ∀ i : grid0.Coords, EltTy.bits .f32 = 32 ∨ (Rect.block (s := S12288x64) S512x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x12288.size a ≤ S12288x12288.size a
  hwx1_0 : ∀ i : grid1.Coords, EltTy.bits .f32 = 32 ∨ (Rect.block (s := S12288x12288) S256x12288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12288x64.size a ≤ S12288x64.size a
  hwx1_1 : ∀ i : grid1.Coords, EltTy.bits .f32 = 32 ∨ (Rect.block (s := S12288x64) S12288x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x16.size a ≤ S12288x16.size a
  hwx1_4 : ∀ i : grid1.Coords, EltTy.bits .f32 = 32 ∨ (Rect.block (s := S12288x16) S256x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x12288.size a ≤ S12288x12288.size a
  hwx2_0 : ∀ i : grid2.Coords, EltTy.bits .f32 = 32 ∨ (Rect.block (s := S12288x12288) S256x12288.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12288x16.size a ≤ S12288x16.size a
  hwx2_1 : ∀ i : grid2.Coords, EltTy.bits .f32 = 32 ∨ (Rect.block (s := S12288x16) S12288x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x16.size a ≤ S12288x16.size a
  hwx2_2 : ∀ i : grid2.Coords, EltTy.bits .f32 = 32 ∨ (Rect.block (s := S12288x16) S256x16.size (cc2_transform_2 i) (hinb2_2 i)).WholeWords (EltTy.packing .f32)

variable [Facts₀]

def dot_S512x500_S500x64_S512x64_1_0_0_1_n_n : DotDims S512x500 S500x64 S512x64 where
  lhsContracting := [1]
  rhsContracting := [0]
  lhsNonContracting := [0]
  rhsNonContracting := [1]
  lhsBatch := []
  rhsBatch := []
  wf := dot_S512x500_S500x64_S512x64_1_0_0_1_n_n_wf
def dot_S256x3072_S3072x64_S256x64_1_0_0_1_n_n : DotDims S256x3072 S3072x64 S256x64 where
  lhsContracting := [1]
  rhsContracting := [0]
  lhsNonContracting := [0]
  rhsNonContracting := [1]
  lhsBatch := []
  rhsBatch := []
  wf := dot_S256x3072_S3072x64_S256x64_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf
def dot_S256x3072_S3072x16_S256x16_1_0_0_1_n_n : DotDims S256x3072 S3072x16 S256x16 where
  lhsContracting := [1]
  rhsContracting := [0]
  lhsNonContracting := [0]
  rhsNonContracting := [1]
  lhsBatch := []
  rhsBatch := []
  wf := dot_S256x3072_S3072x16_S256x16_1_0_0_1_n_n_wf

abbrev win0_0 : Pipeline.Window sig grid0 :=
  Pipeline.Window.ofSpec (Memref.whole main_arg0) S512x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x12288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S12288x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S256x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S256x12288.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S12288x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S256x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S12288x500 : Shape := ⟨2, ![12288, 500]⟩
abbrev S12288x12288 : Shape := ⟨2, ![12288, 12288]⟩
abbrev S500x64 : Shape := ⟨2, ![500, 64]⟩
abbrev S64 : Shape := ⟨1, ![64]⟩
abbrev S64x16 : Shape := ⟨2, ![64, 16]⟩
abbrev S16 : Shape := ⟨1, ![16]⟩
abbrev S12288x64 : Shape := ⟨2, ![12288, 64]⟩
abbrev S1x64 : Shape := ⟨2, ![1, 64]⟩
abbrev S_ : Shape := ⟨0, ![]⟩
abbrev S12288x16 : Shape := ⟨2, ![12288, 16]⟩
abbrev S1x16 : Shape := ⟨2, ![1, 16]⟩

abbrev nBuf : Space → Nat
  | .hbm => 19
  | .vmem => 0
  | .smem => 0
  | _ => 0

abbrev bufTy : (tb : Table) → Fin (tcTables nBuf tb) → BufTy
  | .hbm, ⟨0, _⟩ => ⟨S12288x500, .f32⟩
  | .hbm, ⟨1, _⟩ => ⟨S12288x12288, .f32⟩
  | .hbm, ⟨2, _⟩ => ⟨S500x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S12288x64, .f32⟩
  | .hbm, ⟨7, _⟩ => ⟨S1x64, .f32⟩
  | .hbm, ⟨8, _⟩ => ⟨S12288x64, .f32⟩
  | .hbm, ⟨9, _⟩ => ⟨S12288x64, .f32⟩
  | .hbm, ⟨10, _⟩ => ⟨S12288x64, .f32⟩
  | .hbm, ⟨11, _⟩ => ⟨S_, .f32⟩
  | .hbm, ⟨12, _⟩ => ⟨S12288x64, .f32⟩
  | .hbm, ⟨13, _⟩ => ⟨S12288x64, .f32⟩
  | .hbm, ⟨14, _⟩ => ⟨S12288x16, .f32⟩
  | .hbm, ⟨15, _⟩ => ⟨S1x16, .f32⟩
  | .hbm, ⟨16, _⟩ => ⟨S12288x16, .f32⟩
  | .hbm, ⟨17, _⟩ => ⟨S12288x16, .f32⟩
  | .hbm, ⟨18, _⟩ => ⟨S12288x16, .f32⟩
  | _, _ => ⟨S12288x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  bcast_S_S12288x64 : S_.BroadcastsInDim S12288x64 (![] : Fin 0 → Fin S12288x64.rank)
  bcast_S16_S1x16_1 : S16.BroadcastsInDim S1x16 (![1] : Fin 1 → Fin S1x16.rank)
  bcast_S1x16_S12288x16_0_1 : S1x16.BroadcastsInDim S12288x16 (![0, 1] : Fin 2 → Fin S12288x16.rank)
  dot_S12288x500_S500x64_S12288x64_1_0_0_1_n_n_wf : DotDims.WF S12288x500 S500x64 S12288x64 [1] [0] [0] [1] [] []
  dot_S12288x12288_S12288x64_S12288x64_1_0_0_1_n_n_wf : DotDims.WF S12288x12288 S12288x64 S12288x64 [1] [0] [0] [1] [] []
  dot_S12288x64_S64x16_S12288x16_1_0_0_1_n_n_wf : DotDims.WF S12288x64 S64x16 S12288x16 [1] [0] [0] [1] [] []
  dot_S12288x12288_S12288x16_S12288x16_1_0_0_1_n_n_wf : DotDims.WF S12288x12288 S12288x16 S12288x16 [1] [0] [0] [1] [] []

variable [Facts₀]

def dot_S12288x500_S500x64_S12288x64_1_0_0_1_n_n : DotDims S12288x500 S500x64 S12288x64 where
  lhsContracting := [1]
  rhsContracting := [0]
  lhsNonContracting := [0]
  rhsNonContracting := [1]
  lhsBatch := []
  rhsBatch := []
  wf := dot_S12288x500_S500x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf
def dot_S12288x64_S64x16_S12288x16_1_0_0_1_n_n : DotDims S12288x64 S64x16 S12288x16 where
  lhsContracting := [1]
  rhsContracting := [0]
  lhsNonContracting := [0]
  rhsNonContracting := [1]
  lhsBatch := []
  rhsBatch := []
  wf := dot_S12288x64_S64x16_S12288x16_1_0_0_1_n_n_wf
def dot_S12288x12288_S12288x16_S12288x16_1_0_0_1_n_n : DotDims S12288x12288 S12288x16 S12288x16 where
  lhsContracting := [1]
  rhsContracting := [0]
  lhsNonContracting := [0]
  rhsNonContracting := [1]
  lhsBatch := []
  rhsBatch := []
  wf := dot_S12288x12288_S12288x16_S12288x16_1_0_0_1_n_n_wf

class Facts : Prop extends Facts₀ where

variable [Facts]
-- ==== Proof.KernelRun.lean ====
/-
  The idealized kernel's run with its result array named.

  @main is three pipelined regions among two host reshapes. Every weakly fair execution terminates without a fault in
  a state where the result array (the third region's output) holds what that region's write-backs leave in it, folded
  over its grid from the contents it was entered with, and the six argument arrays are as launched. The buffer contents
  at each boundary between segments are a fold from the launch memory: a host stretch applies its operations, a region
  replaces its arrays by what its pipeline leaves. The final state is read at the result's buffer as well as at the
  arguments'.
-/
import proofs.«176465_j20529943675404_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last region's folded write-backs, the arguments as launched. -/
theorem run_main : θ_run defs (onTc (τ := τ) (main (F := F))) ⟨m, fun _ => 0, ρ⟩ (fun r => ∀ c : Dev nD,
      r.2.mem ((c.tc : Thread nD τ).loc main_v4) = (dat2 (V4 m ρ) c).arrAt 2 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨(h c _ (mem_uc main_v4 (by decide))).trans (W5_arr m ρ c 2),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.Whole

end
-- ==== Proof.LibMatProd.lean ====
/-
  The plain matrix product `[M, K] × [K, N] → [M, N]` (contract the left operand's last axis with the right
  operand's first, no batch axis), read at an index over the extended reals: entry `(i, j)` is
  `∑ k, l (i, k) * r (k, j)`, both for the host's `dot_general` and for a kernel's matrix product into a zero
  accumulator. A change of float format is the identity over the extended reals.
-/
import Idealize.ShloMosaic.PureOps.Ideal
import Idealize.ShloMosaic.PureOps.Ideal.Laws
import Idealize.ShloMosaic.Lib.ValueIdx

noncomputable section

open scoped BigOperators

namespace Cert.MatProd

open Idealize.ShloMosaic Idealize.ShloMosaic.ValueIdx

variable {M K N : Nat}

/-- The contraction index of a plain product is its one coordinate `k : Fin K`. -/
abbrev kEquiv (M K N : Nat) : (DotDims.plain M K N).contr.Idx ≃ Fin K := contrEquiv1 (DotDims.plain M K N) K rfl rfl

/-- On the row axis the left operand's index is the output's row. -/
theorem plain_lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- On the column axis the right operand's index is the output's column. -/
theorem plain_rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index for output `(i, j)` and contraction coordinate `k` is `(i, k)`. -/
theorem plain_lhsIdx (i : Fin M) (j : Fin N) (k : Fin K) :
    (DotDims.plain M K N).lhsIdx (ix2 i j) ((kEquiv M K N).symm k) = ix2 i k := by
  funext a; refine Fin.ext ?_
  match a with
  | ⟨0, _⟩ => exact plain_lhs_row _ _
  | ⟨1, _⟩ =>
    exact ((DotDims.plain M K N).lhsIdx_val_of_single (cl := (1 : Fin 2)) rfl _ _).trans
      (contrEquiv1_symm_val (DotDims.plain M K N) K rfl rfl k)

/-- The right operand's index for output `(i, j)` and contraction coordinate `k` is `(k, j)`. -/
theorem plain_rhsIdx (i : Fin M) (j : Fin N) (k : Fin K) :
    (DotDims.plain M K N).rhsIdx (ix2 i j) ((kEquiv M K N).symm k) = ix2 k j := by
  funext a; refine Fin.ext ?_
  match a with
  | ⟨0, _⟩ =>
    exact ((DotDims.plain M K N).rhsIdx_val_of_single (cr := (0 : Fin 2)) rfl _ _).trans
      (contrEquiv1_symm_val (DotDims.plain M K N) K rfl rfl k)
  | ⟨1, _⟩ => exact plain_rhs_col _ _

/-- THE HOST PRODUCT AT `(i, j)`. -/
theorem dotGeneral_plain_apply {φ₁ φ₂ : FTy} (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ k : Fin K, l (ix2 i k) * r (ix2 k j) := by
  rw [Ideal.dotGeneral_apply, ← Equiv.sum_comp (kEquiv M K N).symm]
  refine Finset.sum_congr rfl fun k _ => ?_
  rw [plain_lhsIdx, plain_rhsIdx]

/-- THE KERNEL PRODUCT INTO A ZERO ACCUMULATOR AT `(i, j)`. -/
theorem matmul_plain_zero_apply {φ₁ φ₂ : FTy} (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ix2 i j)
      = ∑ k : Fin K, l (ix2 i k) * r (ix2 k j) := by
  rw [Ideal.matmul_constant_zero_apply, ← Equiv.sum_comp (kEquiv M K N).symm]
  refine Finset.sum_congr rfl fun k _ => ?_
  rw [plain_lhsIdx, plain_rhsIdx]

/-- The product as one whole-array function of the two operands. -/
def prod (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem prod_apply (A : (⟨2, ![M, K]⟩ : Shape).Idx → EReal) (B : (⟨2, ![K, N]⟩ : Shape).Idx → EReal) (i : Fin M) (j : Fin N) :
    prod A B (ix2 i j) = ∑ k : Fin K, A (ix2 i k) * B (ix2 k j) := rfl

/-- Entry `(p, q)` of a product of BLOCKS is entry `i` of the product of the whole arrays, when row `p` of the left
    block is row `i 0` of the left array and column `q` of the right block is column `i 1` of the right array. -/
theorem prod_block_eq {M' N' : Nat} (A : (⟨2, ![M, K]⟩ : Shape).Idx → EReal) (B : (⟨2, ![K, N]⟩ : Shape).Idx → EReal)
    (A' : (⟨2, ![M', K]⟩ : Shape).Idx → EReal) (B' : (⟨2, ![K, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, B' (ix2 k q) = B (ix2 k (i 1))) :
    prod A' B' (ix2 p q) = prod A B i := by
  show ∑ k : Fin K, A' (ix2 p k) * B' (ix2 k q) = ∑ k : Fin K, A (ix2 (i 0) k) * B (ix2 k (i 1))
  exact Finset.sum_congr rfl fun k _ => by rw [h0 k, h1 k]

/-- The host product IS that function. -/
theorem dotGeneral_plain_eq {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = prod l r := by
  funext i
  obtain ⟨p, q, rfl⟩ : ∃ (p : Fin M) (q : Fin N), i = ix2 p q := ⟨i 0, i 1, eq_ix2 i⟩
  exact dotGeneral_plain_apply prec sched l r p q

/-- The kernel product into a zero accumulator IS that function. -/
theorem matmul_plain_zero_eq {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = prod l r := by
  funext i
  obtain ⟨p, q, rfl⟩ : ∃ (p : Fin M) (q : Fin N), i = ix2 p q := ⟨i 0, i 1, eq_ix2 i⟩
  exact matmul_plain_zero_apply prec l r p q

/-- A dense layer: the product with a weight matrix, plus a bias row, clamped below at zero (the clamp is the
    zero word read as an extended real). -/
def denseRelu (A : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => max (prod A W i + B (ix2 0 (i 1))) (Ideal.ofBits .f32 0x00000000#32)

/-- Entry `(p, q)` of the dense layer of a BLOCK of rows is entry `i` of the dense layer of the whole array, when row
    `p` of the block is row `i 0` of the array and the weight and bias blocks are read at column `i 1`. -/
theorem denseRelu_block_eq {M' N' : Nat} (A : (⟨2, ![M, K]⟩ : Shape).Idx → EReal) (W : (⟨2, ![K, N]⟩ : Shape).Idx → EReal)
    (B : (⟨2, ![1, N]⟩ : Shape).Idx → EReal)
    (A' : (⟨2, ![M', K]⟩ : Shape).Idx → EReal) (W' : (⟨2, ![K, N']⟩ : Shape).Idx → EReal) (B' : (⟨2, ![1, N']⟩ : Shape).Idx → EReal)
    (p : Fin M') (q : Fin N') (i : (⟨2, ![M, N]⟩ : Shape).Idx)
    (h0 : ∀ k : Fin K, A' (ix2 p k) = A (ix2 (i 0) k)) (h1 : ∀ k : Fin K, W' (ix2 k q) = W (ix2 k (i 1)))
    (h2 : B' (ix2 0 q) = B (ix2 0 (i 1))) :
    denseRelu A' W' B' (ix2 p q) = denseRelu A W B i := by
  show max (prod A' W' (ix2 p q) + B' (ix2 0 q)) _ = max (prod A W i + B (ix2 0 (i 1))) _
  rw [prod_block_eq A W A' W' p q i h0 h1, h2]

/-- A two-layer head: a dense layer, then a product with a one-column matrix, plus a scalar bias. -/
def mlpHead {G H : Nat} (P : (⟨2, ![G, H]⟩ : Shape).Idx → EReal) (W1 : (⟨2, ![H, H]⟩ : Shape).Idx → EReal)
    (B1 : (⟨2, ![1, H]⟩ : Shape).Idx → EReal) (W2 : (⟨2, ![H, 1]⟩ : Shape).Idx → EReal)
    (B2 : (⟨2, ![1, 1]⟩ : Shape).Idx → EReal) : (⟨2, ![G, 1]⟩ : Shape).Idx → EReal :=
  fun i => prod (denseRelu P W1 B1) W2 i + B2 (ix2 0 0)

end Cert.MatProd

end
-- ==== Proof.Spec.lean ====
/-
  The function both programs compute: a two-layer graph convolution on a dense weighted graph.

  With X the node features [n, f], A the dense adjacency [n, n], W1 [f, h], W2 [h, o] the layer weights and b1, b2
  the layer biases (as rows [1, h] and [1, o]):

      out = A · ( max(A · (X · W1 + b1), 0) · W2 + b2 ).

  Everything is over the extended reals, entry by entry; a matrix product's entry is the sum over the contracted
  index of the products of entries. Also stated here: an entry of each layer depends on ONE row of its left factor
  only, which is what lets a block of rows be computed from the matching block of rows of the left factor.
-/
import Idealize.ShloMosaic.PureOps.Ideal
import Idealize.ShloMosaic.Lib.ValueIdx
import proofs.«176465_j20529943675404_2_alg».proof.Proof.LibMatProd

noncomputable section

open scoped BigOperators

namespace Cert.Gcn

open Idealize.ShloMosaic Idealize.ShloMosaic.ValueIdx Cert.MatProd

/-- A matrix of extended reals with `a` rows and `b` columns. -/
abbrev Mat (a b : ℕ) : Type := (⟨2, ![a, b]⟩ : Shape).Idx → EReal

/-- A vector of extended reals of length `a`. -/
abbrev Vect (a : ℕ) : Type := (⟨1, ![a]⟩ : Shape).Idx → EReal

variable {r n f h o : ℕ}

/-- A vector laid as the one row of a `[1, a]` matrix. -/
def asRow {a : ℕ} (b : Vect a) : Mat 1 a := fun i => b (ix1 (i 1))

/-- A product with a weight matrix plus a bias row added to every row. -/
def affine (X : Mat r f) (W : Mat f h) (b : Mat 1 h) : Mat r h :=
  fun i => prod X W i + b (ix2 0 (i 1))

/-- Every entry clamped below at zero. -/
def relu (Z : Mat r h) : Mat r h := fun i => max (Z i) 0

/-- One aggregation followed by the next layer's affine map: `max(A · H, 0) · W + b`. -/
def hidden (A : Mat r n) (H : Mat n h) (W : Mat h o) (b : Mat 1 o) : Mat r o :=
  affine (relu (prod A H)) W b

/-- The whole network. -/
def gcn (X : Mat n f) (A : Mat n n) (W1 : Mat f h) (b1 : Mat 1 h) (W2 : Mat h o) (b2 : Mat 1 o) : Mat n o :=
  prod A (hidden A (affine X W1 b1) W2 b2)

/-! ## An entry depends on one row of the left factor -/

variable {r' : ℕ}

/-- An entry of a product, from the matching row of another left factor and column of another right factor. -/
theorem prod_at (A : Mat r n) (B : Mat n h) (A' : Mat r' n) (B' : Mat n h) (j' : (⟨2, ![r', h]⟩ : Shape).Idx)
    (j : (⟨2, ![r, h]⟩ : Shape).Idx) (hA : ∀ k : Fin n, A' (ix2 (j' 0) k) = A (ix2 (j 0) k))
    (hB : ∀ k : Fin n, B' (ix2 k (j' 1)) = B (ix2 k (j 1))) : prod A' B' j' = prod A B j :=
  Finset.sum_congr rfl fun k _ => by rw [hA k, hB k]

/-- The same for the affine map: the bias row is read at the entry's column. -/
theorem affine_at (X : Mat r f) (W : Mat f h) (b : Mat 1 h) (X' : Mat r' f) (W' : Mat f h) (b' : Mat 1 h)
    (j' : (⟨2, ![r', h]⟩ : Shape).Idx) (j : (⟨2, ![r, h]⟩ : Shape).Idx)
    (hX : ∀ k : Fin f, X' (ix2 (j' 0) k) = X (ix2 (j 0) k)) (hW : ∀ k : Fin f, W' (ix2 k (j' 1)) = W (ix2 k (j 1)))
    (hb : b' (ix2 0 (j' 1)) = b (ix2 0 (j 1))) : affine X' W' b' j' = affine X W b j := by
  show prod X' W' j' + b' (ix2 0 (j' 1)) = prod X W j + b (ix2 0 (j 1))
  rw [prod_at X W X' W' j' j hX hW, hb]

/-- The same for an aggregation followed by the next affine map, when the right factors are the same arrays. -/
theorem hidden_at (A : Mat r n) (A' : Mat r' n) (H H' : Mat n h) (W W' : Mat h o) (b b' : Mat 1 o)
    (j' : (⟨2, ![r', o]⟩ : Shape).Idx) (j : (⟨2, ![r, o]⟩ : Shape).Idx)
    (hA : ∀ k : Fin n, A' (ix2 (j' 0) k) = A (ix2 (j 0) k)) (hH : H' = H) (hW : W' = W) (hb : b' = b)
    (hj : (j' 1).val = (j 1).val) :
    hidden A' H' W' b' j' = hidden A H W b j := by
  subst hH hW hb
  have hc : j' 1 = j 1 := Fin.ext hj
  refine affine_at (relu (prod A H')) W' b' (relu (prod A' H')) W' b' j' j (fun k => ?_) (fun k => by rw [hc]) (by rw [hc])
  show max (prod A' H' (ix2 (j' 0) k)) 0 = max (prod A H' (ix2 (j 0) k)) 0
  rw [prod_at A H' A' H' (ix2 (j' 0) k) (ix2 (j 0) k) hA (fun _ => rfl)]

end Cert.Gcn

end
-- ==== Proof.LibBroadcastTo.lean ====
/-
  A vector broadcast of a row or of a column to a matrix, read at an entry. General in the extents.

  * a row `[1, n]` broadcast down `m` rows: entry `(p, k)` is the row's entry `(0, k)`;
  * a column `[m, 1]` broadcast across `n` columns: entry `(p, k)` is the column's entry `(p, 0)`.
-/
import Idealize.ShloMosaic.Lib.Pipeline.Value
import Idealize.ShloMosaic.Lib.ValueIdx

noncomputable section

namespace Cert.BroadcastTo

open Idealize.ShloMosaic Idealize.ShloMosaic.ValueIdx

variable {α : Type} {m n : Nat}

/-- A row broadcast down the rows keeps the column coordinate. -/
theorem row_apply (x : (⟨2, ![1, n]⟩ : Shape).Idx → α) (h : (⟨2, ![1, n]⟩ : Shape).Broadcasts ⟨2, ![m, n]⟩)
    (p : Fin m) (k : Fin n) : broadcastTo ⟨2, ![m, n]⟩ x h (ix2 p k) = x (ix2 0 k) :=
  broadcastTo_apply x h (ix2 p k) (ix2 0 k) (fun a => match a with
    | ⟨0, _⟩ => by show (0 : ℕ) = if (1 : ℕ) = 1 then 0 else _; rw [if_pos rfl]
    | ⟨1, _⟩ => by
      show k.val = if n = 1 then 0 else k.val
      split
      · have := k.isLt; omega
      · rfl)

/-- A column broadcast across the columns keeps the row coordinate. -/
theorem col_apply (x : (⟨2, ![m, 1]⟩ : Shape).Idx → α) (h : (⟨2, ![m, 1]⟩ : Shape).Broadcasts ⟨2, ![m, n]⟩)
    (p : Fin m) (k : Fin n) : broadcastTo ⟨2, ![m, n]⟩ x h (ix2 p k) = x (ix2 p 0) :=
  broadcastTo_apply x h (ix2 p k) (ix2 p 0) (fun a => match a with
    | ⟨0, _⟩ => by
      show p.val = if m = 1 then 0 else p.val
      split
      · have := p.isLt; omega
      · rfl
    | ⟨1, _⟩ => by show (0 : ℕ) = if (1 : ℕ) = 1 then 0 else _; rw [if_pos rfl])

end Cert.BroadcastTo

end
-- ==== Proof.LibQuarters.lean ====
/-
  A sum over a range of four equal quarters, accumulated quarter by quarter from zero.

  Over any commutative additive monoid (so on the extended reals with no finiteness asked): starting from zero and
  adding, in turn, the sum over each quarter of C places, one ends at the sum over all C + C + C + C places. Only
  associativity of addition and 0 + x = x are used. Over Mathlib only.
-/
import Mathlib.Algebra.BigOperators.Fin

namespace LibQuarters

open Finset

variable {M : Type*} [AddCommMonoid M]

/-- The four quarters added onto zero, left to right, give the whole sum. -/
theorem sum_quarters (C : ℕ) (f : Fin (C + C + C + C) → M) :
    (((0 + ∑ c : Fin C, f ⟨c.val, by omega⟩) + ∑ c : Fin C, f ⟨C + c.val, by omega⟩)
        + ∑ c : Fin C, f ⟨C + C + c.val, by omega⟩) + ∑ c : Fin C, f ⟨C + C + C + c.val, by omega⟩
      = ∑ k : Fin (C + C + C + C), f k := by
  rw [Fin.sum_univ_add, Fin.sum_univ_add, Fin.sum_univ_add, zero_add]
  rfl

end LibQuarters
-- ==== Proof.Payloads.lean ====
/-
  What each kernel body stores, as a function of the blocks it loads.

  Over the extended reals a change of float format is the identity and a matrix product into a zero accumulator is
  the plain sum of products over the contracted index. So:

  * the projection body stores `x · W + b` of its row block `x`, the weights and the bias row;
  * the fused body cuts the contraction over the graph's nodes into four quarters of 3072, adds the four quarter
    products one after the other onto a zero accumulator — which is the whole product, by associativity of the sum —,
    clamps at zero, multiplies by the second weights and adds the second bias row;
  * the final body accumulates the same four quarter products and stores them.
-/
import proofs.«176465_j20529943675404_2_alg».proof.Proof.Gen.KernelIdeal.Frame
import proofs.«176465_j20529943675404_2_alg».proof.Proof.Spec
import proofs.«176465_j20529943675404_2_alg».proof.Proof.LibBroadcastTo
import proofs.«176465_j20529943675404_2_alg».proof.Proof.LibQuarters
import Idealize.ShloMosaic.Lib.Pipeline.Value
import Idealize.ShloMosaic.Lib.ValueIdx
import Idealize.ShloMosaic.PureOps.Ideal.Laws

noncomputable section

open scoped BigOperators

namespace Cert.Gcn.Body

open Cert.KernelIdeal Cert.KernelIdeal.Gen
open Idealize.ShloMosaic Idealize.ShloMosaic.ValueIdx Cert.MatProd Cert.Gcn

/-- A load of extended reals through a rectangle. -/
local notation "ldR" => View.ld (Val := Elt Ideal) (e' := EltTy.f32)

theorem hz : (![0, 0] : Fin 2 → Nat) = fun _ => 0 := funext fun a => by fin_cases a <;> rfl

/-! ## A load through a rectangle, read at an entry -/

/-- A load through a unit-stride rectangle reads the array at the rectangle's offset plus the local index. -/
theorem ld_at {R C : ℕ} (x : Mat R C) (off size : Fin 2 → ℕ) (inb : ∀ a, off a + size a ≤ (⟨2, ![R, C]⟩ : Shape).size a)
    (y : (Rect.unit (s := ⟨2, ![R, C]⟩) off size inb).shape.Idx) (i : (⟨2, ![R, C]⟩ : Shape).Idx)
    (h0 : (i 0).val = off 0 + (y 0).val) (h1 : (i 1).val = off 1 + (y 1).val) :
    ldR x (Rect.unit (s := ⟨2, ![R, C]⟩) off size inb) y = x i :=
  congrArg x (funext fun a => Fin.ext (by
    match a with
    | ⟨0, _⟩ => show off 0 + 1 * (y 0).val = (i 0).val; omega
    | ⟨1, _⟩ => show off 1 + 1 * (y 1).val = (i 1).val; omega))

/-! ## The contraction over the nodes, a quarter at a time -/

/-- One quarter's product at an entry: the sum over the quarter's 3072 nodes, starting at node `o`. -/
theorem quarter_apply {h : ℕ} (A : Mat 256 12288) (H : Mat 12288 h) (o : ℕ) (ho : o + 3072 ≤ 12288)
    (inbA : ∀ a, (![0, o] : Fin 2 → ℕ) a + (![256, 3072] : Fin 2 → ℕ) a ≤ (⟨2, ![256, 12288]⟩ : Shape).size a)
    (inbH : ∀ a, (![o, 0] : Fin 2 → ℕ) a + (![3072, h] : Fin 2 → ℕ) a ≤ (⟨2, ![12288, h]⟩ : Shape).size a)
    (p : Fin 256) (j : Fin h) :
    prod (M := 256) (K := 3072) (N := h) (ldR A (Rect.unit (s := ⟨2, ![256, 12288]⟩) ![0, o] ![256, 3072] inbA))
        (ldR H (Rect.unit (s := ⟨2, ![12288, h]⟩) ![o, 0] ![3072, h] inbH)) (ix2 p j)
      = ∑ c : Fin 3072, A (ix2 p ⟨o + c.val, by omega⟩) * H (ix2 ⟨o + c.val, by omega⟩ j) := by
  rw [prod_apply]
  refine Finset.sum_congr rfl fun c _ => ?_
  rw [ld_at A ![0, o] ![256, 3072] inbA (ix2 p c) (ix2 p ⟨o + c.val, by omega⟩) (by show p.val = 0 + p.val; omega) rfl,
    ld_at H ![o, 0] ![3072, h] inbH (ix2 c j) (ix2 ⟨o + c.val, by omega⟩ j) rfl (by show j.val = 0 + j.val; omega)]

/-- The four quarter products added onto zero, in order, are the whole product. -/
theorem quarters_eq {h : ℕ} (A : Mat 256 12288) (H : Mat 12288 h) (inbA0 inbH0 inbA1 inbH1 inbA2 inbH2 inbA3 inbH3)
    (p : Fin 256) (j : Fin h) :
    (((0 + prod (M := 256) (K := 3072) (N := h) (ldR A (Rect.unit (s := ⟨2, ![256, 12288]⟩) ![0, 0] ![256, 3072] inbA0))
              (ldR H (Rect.unit (s := ⟨2, ![12288, h]⟩) ![0, 0] ![3072, h] inbH0)) (ix2 p j))
          + prod (M := 256) (K := 3072) (N := h) (ldR A (Rect.unit (s := ⟨2, ![256, 12288]⟩) ![0, 3072] ![256, 3072] inbA1))
              (ldR H (Rect.unit (s := ⟨2, ![12288, h]⟩) ![3072, 0] ![3072, h] inbH1)) (ix2 p j))
        + prod (M := 256) (K := 3072) (N := h) (ldR A (Rect.unit (s := ⟨2, ![256, 12288]⟩) ![0, 6144] ![256, 3072] inbA2))
            (ldR H (Rect.unit (s := ⟨2, ![12288, h]⟩) ![6144, 0] ![3072, h] inbH2)) (ix2 p j))
      + prod (M := 256) (K := 3072) (N := h) (ldR A (Rect.unit (s := ⟨2, ![256, 12288]⟩) ![0, 9216] ![256, 3072] inbA3))
          (ldR H (Rect.unit (s := ⟨2, ![12288, h]⟩) ![9216, 0] ![3072, h] inbH3)) (ix2 p j)
      = prod A H (ix2 p j) := by
  rw [quarter_apply A H 0 (by omega), quarter_apply A H 3072 (by omega), quarter_apply A H 6144 (by omega),
    quarter_apply A H 9216 (by omega), prod_apply]
  have hq := LibQuarters.sum_quarters 3072 (fun k : Fin 12288 => A (ix2 p k) * H (ix2 k j))
  refine Eq.trans ?_ hq
  congr 1

/-! ## The operations of the bodies, over plain variables -/

/-- A product into a zero accumulator plus a row repeated down the rows, at an entry. -/
theorem dense_apply {M K N : ℕ} (l : Mat M K) (r : Mat K N) (b : Mat 1 N)
    (hs : (⟨2, ![1, N]⟩ : Shape).ShapeCasts ⟨2, ![1, N]⟩) (hb : (⟨2, ![1, N]⟩ : Shape).Broadcasts ⟨2, ![M, N]⟩)
    (p : Fin M) (q : Fin N) :
    FloatOps.matmul (F := Ideal) (φ₁ := .bf16) (φ₂ := .bf16) (DotDims.plain M K N) none l r
          (constant ⟨2, ![M, N]⟩ .f32 0x00000000#32) (ix2 p q)
        + broadcastTo ⟨2, ![M, N]⟩ (shapeCast ⟨2, ![1, N]⟩ b hs) hb (ix2 p q)
      = prod l r (ix2 p q) + b (ix2 0 q) := by
  rw [matmul_plain_zero_apply, shapeCast_self, Cert.BroadcastTo.row_apply, prod_apply]

/-- The accumulator after four products into zero accumulators, each right factor through an identity reshape:
    the four products added onto zero. -/
theorem acc4_vars {h : ℕ} (a0 a1 a2 a3 : Mat 256 3072) (h0 h1 h2 h3 : Mat 3072 h)
    (hs : (⟨2, ![3072, h]⟩ : Shape).ShapeCasts ⟨2, ![3072, h]⟩) (p : Fin 256) (j : Fin h) :
    (((Ideal.ofBits .f32 0x00000000#32
        + FloatOps.matmul (F := Ideal) (φ₁ := .bf16) (φ₂ := .bf16) (DotDims.plain 256 3072 h) none a0
            (shapeCast ⟨2, ![3072, h]⟩ h0 hs) (constant ⟨2, ![256, h]⟩ .f32 0x00000000#32) (ix2 p j))
        + FloatOps.matmul (F := Ideal) (φ₁ := .bf16) (φ₂ := .bf16) (DotDims.plain 256 3072 h) none a1
            (shapeCast ⟨2, ![3072, h]⟩ h1 hs) (constant ⟨2, ![256, h]⟩ .f32 0x00000000#32) (ix2 p j))
        + FloatOps.matmul (F := Ideal) (φ₁ := .bf16) (φ₂ := .bf16) (DotDims.plain 256 3072 h) none a2
            (shapeCast ⟨2, ![3072, h]⟩ h2 hs) (constant ⟨2, ![256, h]⟩ .f32 0x00000000#32) (ix2 p j))
        + FloatOps.matmul (F := Ideal) (φ₁ := .bf16) (φ₂ := .bf16) (DotDims.plain 256 3072 h) none a3
            (shapeCast ⟨2, ![3072, h]⟩ h3 hs) (constant ⟨2, ![256, h]⟩ .f32 0x00000000#32) (ix2 p j)
      = (((0 + prod a0 h0 (ix2 p j)) + prod a1 h1 (ix2 p j)) + prod a2 h2 (ix2 p j)) + prod a3 h3 (ix2 p j) := by
  rw [Ideal.ofBits_zero_f32, shapeCast_self, shapeCast_self, shapeCast_self, shapeCast_self,
    matmul_plain_zero_eq, matmul_plain_zero_eq, matmul_plain_zero_eq, matmul_plain_zero_eq]

/-! ## The three bodies -/

/-- The projection body: the row block times the weights, plus the bias row. -/
theorem out0_eq (x0 : Mat 512 500) (x1 : Mat 500 64) (x2 : Mat 1 64) :
    out0_3 (F := Ideal) x0 x1 x2 = affine x0 x1 x2 := by
  unfold out0_3
  rw [View.canon_unit_zero hz]
  funext i
  obtain ⟨p, q, rfl⟩ : ∃ (p : Fin 512) (q : Fin 64), i = ix2 p q := ⟨i 0, i 1, eq_ix2 i⟩
  refine (dense_apply (ldR x0 r0_0) (ldR x1 r0_1) (ldR x2 r0_2) shapeCasts_S1x64_S1x64 broadcasts_S1x64_S512x64 p q).trans ?_
  rw [View.ld_unit_zero hz, View.ld_unit_zero hz, View.ld_unit_zero hz]
  rfl

/-- The aggregation inside the fused body, clamped: the four quarters make the whole product. -/
theorem agg1_eq (x0 : Mat 256 12288) (x1 : Mat 12288 64) (p : Fin 256) (j : Fin 64) :
    k1_pay2 (F := Ideal) (ldR x0 r1_0) (ldR x1 r1_1) (ldR x0 r1_2) (ldR x1 r1_3) (ldR x0 r1_4) (ldR x1 r1_5) (ldR x0 r1_6) (ldR x1 r1_7) (ix2 p j)
      = relu (prod x0 x1) (ix2 p j) := by
  refine (congrArg (fun z : EReal => max z (Ideal.ofBits .f32 0x00000000#32))
    ((acc4_vars (ldR x0 r1_0) (ldR x0 r1_2) (ldR x0 r1_4) (ldR x0 r1_6) (ldR x1 r1_1) (ldR x1 r1_3) (ldR x1 r1_5) (ldR x1 r1_7)
        shapeCasts_S3072x64_S3072x64 p j).trans
      (quarters_eq x0 x1 inb_S256x12288_S256x3072_0_0 inb_S12288x64_S3072x64_0_0 inb_S256x12288_S256x3072_0_3072 inb_S12288x64_S3072x64_3072_0
        inb_S256x12288_S256x3072_0_6144 inb_S12288x64_S3072x64_6144_0 inb_S256x12288_S256x3072_0_9216 inb_S12288x64_S3072x64_9216_0 p j))).trans ?_
  show max (prod x0 x1 (ix2 p j)) (Ideal.ofBits .f32 0x00000000#32) = max (prod x0 x1 (ix2 p j)) 0
  rw [Ideal.ofBits_zero_f32]

/-- The fused body: aggregate, clamp, multiply by the second weights, add the second bias row. -/
theorem out1_eq (x0 : Mat 256 12288) (x1 : Mat 12288 64) (x2 : Mat 64 16) (x3 : Mat 1 16) :
    out1_4 (F := Ideal) x0 x1 x2 x3 = hidden x0 x1 x2 x3 := by
  unfold out1_4
  rw [View.canon_unit_zero hz]
  funext i
  obtain ⟨p, q, rfl⟩ : ∃ (p : Fin 256) (q : Fin 16), i = ix2 p q := ⟨i 0, i 1, eq_ix2 i⟩
  refine (dense_apply (k1_pay2 (F := Ideal) (ldR x0 r1_0) (ldR x1 r1_1) (ldR x0 r1_2) (ldR x1 r1_3) (ldR x0 r1_4) (ldR x1 r1_5) (ldR x0 r1_6) (ldR x1 r1_7))
    (ldR x2 r1_8) (ldR x3 r1_9) shapeCasts_S1x16_S1x16 broadcasts_S1x16_S256x16 p q).trans ?_
  rw [View.ld_unit_zero hz, View.ld_unit_zero hz]
  show prod _ x2 (ix2 p q) + x3 (ix2 0 q) = prod (relu (prod x0 x1)) x2 (ix2 p q) + x3 (ix2 0 q)
  rw [prod_apply, prod_apply]
  exact congrArg (· + x3 (ix2 0 q)) (Finset.sum_congr rfl fun k _ => by rw [agg1_eq x0 x1 p k])

/-- The final body: the four quarters make the whole product. -/
theorem out2_eq (x0 : Mat 256 12288) (x1 : Mat 12288 16) :
    out2_2 (F := Ideal) x0 x1 = prod x0 x1 := by
  unfold out2_2
  rw [View.canon_unit_zero hz]
  funext i
  obtain ⟨p, q, rfl⟩ : ∃ (p : Fin 256) (q : Fin 16), i = ix2 p q := ⟨i 0, i 1, eq_ix2 i⟩
  exact (acc4_vars (ldR x0 r2_0) (ldR x0 r2_2) (ldR x0 r2_4) (ldR x0 r2_6) (ldR x1 r2_1) (ldR x1 r2_3) (ldR x1 r2_5) (ldR x1 r2_7)
      shapeCasts_S3072x16_S3072x16 p q).trans
    (quarters_eq x0 x1 inb_S256x12288_S256x3072_0_0 inb_S12288x16_S3072x16_0_0 inb_S256x12288_S256x3072_0_3072 inb_S12288x16_S3072x16_3072_0
      inb_S256x12288_S256x3072_0_6144 inb_S12288x16_S3072x16_6144_0 inb_S256x12288_S256x3072_0_9216 inb_S12288x16_S3072x16_9216_0 p q)

end Cert.Gcn.Body

end
-- ==== Proof.Region0.lean ====
/-
  The projection region's output array.

  The grid has 24 points; point t reads rows 512·t … 512·t + 511 of the features, the whole weight matrix and the
  whole bias row, and writes back rows 512·t … 512·t + 511 of the output. An entry of `X · W + b` depends on one row
  of X only, so what point t writes back is block t of `X · W + b` of the whole arrays; the 24 row blocks tile the
  output, so the array ends holding `X · W + b`. Stated for any contents the region is entered with.
-/
import proofs.«176465_j20529943675404_2_alg».proof.Proof.Payloads

set_option maxRecDepth 16384

noncomputable section

namespace Cert.Gcn.Region0

open Cert.KernelIdeal Cert.KernelIdeal.Gen
open Idealize.ShloMosaic Idealize.ShloMosaic.TcCoe Idealize.SL.Sem
open Idealize.ShloMosaic.ValueIdx Cert.MatProd Cert.Gcn Cert.Gcn.Body
open Idealize.ShloMosaic.Pipeline (Dat)

variable (V : (c : Dev nD) → (b : Ref sig .tc) → Buf (Elt Ideal) ((c : Thread nD τ).loc b))

/-- The block index maps over the grid: the feature and output windows move down the rows with the point, every
    other block index is zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `X · W + b` of the arrays as the region finds them. -/
theorem flushed_eq (c : Dev nD) (t : Fin cfg0.N) :
    (dat0 (F := Ideal) V c).flushed 3 t
      = ((cfg0.win 3).blk t).view.read (Elt Ideal) (affine (V c main_arg0) (V c main_arg2) (V c main_v0)) := by
  show (cfg0.win 3).cut (grid0.coords t) ((dat0 V c).after 3 t) = _
  rw [after0_3, out0_eq (iblk0 V c 0 t) (iblk0 V c 1 t) (iblk0 V c 2 t)]
  obtain ⟨e0, e1, e2, e3, e4, e5, e6, e7⟩ := idx_facts t
  funext j
  show affine (iblk0 V c 0 t) (iblk0 V c 1 t) (iblk0 V c 2 t) j
    = affine (V c main_arg0) (V c main_arg2) (V c main_v0) (((cfg0.win 3).blk t).view.emb j)
  refine affine_at _ _ _ _ _ _ j _ (fun k => ?_) (fun k => ?_) ?_
  · show V c main_arg0 (((cfg0.win 0).blk t).view.emb (ix2 (j 0) k)) = V c main_arg0 (ix2 ((((cfg0.win 3).blk t).view.emb j) 0) k)
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 500 + 1 * k.val = k.val; omega
  · show V c main_arg2 (((cfg0.win 1).blk t).view.emb (ix2 k (j 1))) = V c main_arg2 (ix2 k ((((cfg0.win 3).blk t).view.emb j) 1))
    refine congrArg _ (funext fun a => Fin.ext ?_)
    match a with
    | ⟨0, _⟩ => show win0_1.index t (0 : Fin 2) * 500 + 1 * k.val = k.val; omega
    | ⟨1, _⟩ => show win0_1.index t (1 : Fin 2) * 64 + 1 * (j 1).val = win0_3.index t (1 : Fin 2) * 64 + 1 * (j 1).val; omega
  · show V c main_v0 (((cfg0.win 2).blk t).view.emb (ix2 0 (j 1))) = V c main_v0 (ix2 0 ((((cfg0.win 3).blk t).view.emb j) 1))
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

/-- An index of the output is in point `t`'s block iff each coordinate is in the block's range on its axis. -/
theorem mem_blk (t : Fin cfg0.N) (i : S12288x64.Idx) :
    i ∈ ((cfg0.win 3).blk t).view.set ↔ ∀ a : Fin 2, win0_3.index t a * S512x64.size a ≤ (i a).val
      ∧ (i a).val < win0_3.index t a * S512x64.size a + S512x64.size a := by
  show i ∈ ((View.whole main_v1).slice (win0_3.rect t)).set ↔ _
  rw [View.set_slice_whole, Rect.mem_set_unit]
  exact Iff.rfl

/-- Every row of the output is in the block of the point its row index divided by 512 names. -/
theorem cover (i : S12288x64.Idx) :
    ∃ t : Fin cfg0.N, (cfg0.win 3).flush t = true ∧ i ∈ ((cfg0.win 3).blk t).view.set := by
  have hi0 : (i 0).val < 12288 := (i 0).isLt
  have hi1 : (i 1).val < 64 := (i 1).isLt
  have hN : cfg0.N = 24 := N_0
  refine ⟨⟨(i 0).val / 512, by rw [hN]; omega⟩, flush0_3 _, ?_⟩
  obtain ⟨e0, e1, e2, e3, e4, e5, e6, e7⟩ := idx_facts ⟨(i 0).val / 512, by rw [hN]; omega⟩
  rw [mem_blk]
  intro a
  match a with
  | ⟨0, _⟩ =>
    show win0_3.index _ (0 : Fin 2) * 512 ≤ (i 0).val ∧ (i 0).val < win0_3.index _ (0 : Fin 2) * 512 + 512
    rw [e6]; show (i 0).val / 512 * 512 ≤ (i 0).val ∧ (i 0).val < (i 0).val / 512 * 512 + 512; omega
  | ⟨1, _⟩ =>
    show win0_3.index _ (1 : Fin 2) * 64 ≤ (i 1).val ∧ (i 1).val < win0_3.index _ (1 : Fin 2) * 64 + 64
    rw [e7]; omega

/-- The output array after the region. -/
theorem final (c : Dev nD) :
    (dat0 (F := Ideal) V c).arrAt 3 cfg0.N = affine (V c main_arg0) (V c main_arg2) (V c main_v0) :=
  (dat0 V c).arrAt_eq_of_cover 3 _ (fun t _ => flushed_eq V c t) cover

end Cert.Gcn.Region0

end
-- ==== Proof.Region1.lean ====
/-
  The fused region's output array.

  The grid has 48 points; point t reads rows 256·t … 256·t + 255 of the adjacency, and the whole of the first layer's
  pre-aggregation array, of the second weights and of the second bias row, and writes back rows 256·t … 256·t + 255 of
  the output. An entry of `max(A · H, 0) · W + b` depends on one row of A only, so what point t writes back is block t
  of that function of the whole arrays; the 48 row blocks tile the output. Stated for any contents the region is
  entered with.
-/
import proofs.«176465_j20529943675404_2_alg».proof.Proof.Payloads

set_option maxRecDepth 16384

noncomputable section

namespace Cert.Gcn.Region1

open Cert.KernelIdeal Cert.KernelIdeal.Gen
open Idealize.ShloMosaic Idealize.ShloMosaic.TcCoe Idealize.SL.Sem
open Idealize.ShloMosaic.ValueIdx Cert.MatProd Cert.Gcn Cert.Gcn.Body
open Idealize.ShloMosaic.Pipeline (Dat)

variable (V : (c : Dev nD) → (b : Ref sig .tc) → Buf (Elt Ideal) ((c : Thread nD τ).loc b))

/-- The block index maps over the grid: the adjacency and output windows move down the rows with the point, every
    other block index is zero. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `max(A · H, 0) · W + b` of the arrays as the region finds them. -/
theorem flushed_eq (c : Dev nD) (t : Fin cfg1.N) :
    (dat1 (F := Ideal) V c).flushed 4 t
      = ((cfg1.win 4).blk t).view.read (Elt Ideal) (hidden (V c main_arg1) (V c main_v1) (V c main_arg4) (V c main_v2)) := by
  show (cfg1.win 4).cut (grid1.coords t) ((dat1 V c).after 4 t) = _
  rw [after1_4, out1_eq (iblk1 V c 0 t) (iblk1 V c 1 t) (iblk1 V c 2 t) (iblk1 V c 3 t)]
  obtain ⟨e0, e1, e2, e3, e4, e5, e6, e7, e8, e9⟩ := idx_facts t
  funext j
  show hidden (iblk1 V c 0 t) (iblk1 V c 1 t) (iblk1 V c 2 t) (iblk1 V c 3 t) j
    = hidden (V c main_arg1) (V c main_v1) (V c main_arg4) (V c main_v2) (((cfg1.win 4).blk t).view.emb j)
  refine hidden_at _ _ _ _ _ _ _ _ j _ (fun k => ?_) (funext fun y => ?_) (funext fun y => ?_) (funext fun y => ?_) ?_
  · show V c main_arg1 (((cfg1.win 0).blk t).view.emb (ix2 (j 0) k)) = V c main_arg1 (ix2 ((((cfg1.win 4).blk t).view.emb j) 0) k)
    refine congrArg _ (funext fun a => Fin.ext ?_)
    match a with
    | ⟨0, _⟩ => show win1_0.index t (0 : Fin 2) * 256 + 1 * (j 0).val = win1_4.index t (0 : Fin 2) * 256 + 1 * (j 0).val; omega
    | ⟨1, _⟩ => show win1_0.index t (1 : Fin 2) * 12288 + 1 * k.val = k.val; omega
  · show V c main_v1 (((cfg1.win 1).blk t).view.emb y) = V c main_v1 y
    refine congrArg _ (funext fun a => Fin.ext ?_)
    match a with
    | ⟨0, _⟩ => show win1_1.index t (0 : Fin 2) * 12288 + 1 * (y 0).val = (y 0).val; omega
    | ⟨1, _⟩ => show win1_1.index t (1 : Fin 2) * 64 + 1 * (y 1).val = (y 1).val; omega
  · show V c main_arg4 (((cfg1.win 2).blk t).view.emb y) = V c main_arg4 y
    refine congrArg _ (funext fun a => Fin.ext ?_)
    match a with
    | ⟨0, _⟩ => show win1_2.index t (0 : Fin 2) * 64 + 1 * (y 0).val = (y 0).val; omega
    | ⟨1, _⟩ => show win1_2.index t (1 : Fin 2) * 16 + 1 * (y 1).val = (y 1).val; omega
  · show V c main_v2 (((cfg1.win 3).blk t).view.emb y) = V c main_v2 y
    refine congrArg _ (funext fun a => Fin.ext ?_)
    match a with
    | ⟨0, _⟩ => show win1_3.index t (0 : Fin 2) * 1 + 1 * (y 0).val = (y 0).val; omega
    | ⟨1, _⟩ => show win1_3.index t (1 : Fin 2) * 16 + 1 * (y 1).val = (y 1).val; omega
  · show (j 1).val = win1_4.index t (1 : Fin 2) * 16 + 1 * (j 1).val; omega

/-- An index of the output is in point `t`'s block iff each coordinate is in the block's range on its axis. -/
theorem mem_blk (t : Fin cfg1.N) (i : S12288x16.Idx) :
    i ∈ ((cfg1.win 4).blk t).view.set ↔ ∀ a : Fin 2, win1_4.index t a * S256x16.size a ≤ (i a).val
      ∧ (i a).val < win1_4.index t a * S256x16.size a + S256x16.size a := by
  show i ∈ ((View.whole main_v3).slice (win1_4.rect t)).set ↔ _
  rw [View.set_slice_whole, Rect.mem_set_unit]
  exact Iff.rfl

/-- Every row of the output is in the block of the point its row index divided by 256 names. -/
theorem cover (i : S12288x16.Idx) :
    ∃ t : Fin cfg1.N, (cfg1.win 4).flush t = true ∧ i ∈ ((cfg1.win 4).blk t).view.set := by
  have hi0 : (i 0).val < 12288 := (i 0).isLt
  have hi1 : (i 1).val < 16 := (i 1).isLt
  have hN : cfg1.N = 48 := N_1
  refine ⟨⟨(i 0).val / 256, by rw [hN]; omega⟩, flush1_4 _, ?_⟩
  obtain ⟨e0, e1, e2, e3, e4, e5, e6, e7, e8, e9⟩ := idx_facts ⟨(i 0).val / 256, by rw [hN]; omega⟩
  rw [mem_blk]
  intro a
  match a with
  | ⟨0, _⟩ =>
    show win1_4.index _ (0 : Fin 2) * 256 ≤ (i 0).val ∧ (i 0).val < win1_4.index _ (0 : Fin 2) * 256 + 256
    rw [e8]; show (i 0).val / 256 * 256 ≤ (i 0).val ∧ (i 0).val < (i 0).val / 256 * 256 + 256; omega
  | ⟨1, _⟩ =>
    show win1_4.index _ (1 : Fin 2) * 16 ≤ (i 1).val ∧ (i 1).val < win1_4.index _ (1 : Fin 2) * 16 + 16
    rw [e9]; omega

/-- The output array after the region. -/
theorem final (c : Dev nD) :
    (dat1 (F := Ideal) V c).arrAt 4 cfg1.N = hidden (V c main_arg1) (V c main_v1) (V c main_arg4) (V c main_v2) :=
  (dat1 V c).arrAt_eq_of_cover 4 _ (fun t _ => flushed_eq V c t) cover

end Cert.Gcn.Region1

end
-- ==== Proof.Region2.lean ====
/-
  The final region's output array.

  The grid has 48 points; point t reads rows 256·t … 256·t + 255 of the adjacency and the whole of the second layer's
  pre-aggregation array, and writes back rows 256·t … 256·t + 255 of the output. An entry of `A · H` depends on one
  row of A only, so what point t writes back is block t of `A · H` of the whole arrays; the 48 row blocks tile the
  output. Stated for any contents the region is entered with.
-/
import proofs.«176465_j20529943675404_2_alg».proof.Proof.Payloads

set_option maxRecDepth 16384

noncomputable section

namespace Cert.Gcn.Region2

open Cert.KernelIdeal Cert.KernelIdeal.Gen
open Idealize.ShloMosaic Idealize.ShloMosaic.TcCoe Idealize.SL.Sem
open Idealize.ShloMosaic.ValueIdx Cert.MatProd Cert.Gcn Cert.Gcn.Body
open Idealize.ShloMosaic.Pipeline (Dat)

variable (V : (c : Dev nD) → (b : Ref sig .tc) → Buf (Elt Ideal) ((c : Thread nD τ).loc b))

/-- The block index maps over the grid: the adjacency and output windows move down the rows with the point, every
    other block index is zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of `A · H` of the arrays as the region finds them. -/
theorem flushed_eq (c : Dev nD) (t : Fin cfg2.N) :
    (dat2 (F := Ideal) V c).flushed 2 t
      = ((cfg2.win 2).blk t).view.read (Elt Ideal) (prod (M := 12288) (K := 12288) (N := 16) (V c main_arg1) (V c main_v3)) := by
  show (cfg2.win 2).cut (grid2.coords t) ((dat2 V c).after 2 t) = _
  rw [after2_2, out2_eq (iblk2 V c 0 t) (iblk2 V c 1 t)]
  obtain ⟨e0, e1, e2, e3, e4, e5⟩ := idx_facts t
  funext j
  show prod (M := 256) (K := 12288) (N := 16) (iblk2 V c 0 t) (iblk2 V c 1 t) j
    = prod (M := 12288) (K := 12288) (N := 16) (V c main_arg1) (V c main_v3) (((cfg2.win 2).blk t).view.emb j)
  refine prod_at _ _ _ _ j _ (fun k => ?_) (fun k => ?_)
  · show V c main_arg1 (((cfg2.win 0).blk t).view.emb (ix2 (j 0) k)) = V c main_arg1 (ix2 ((((cfg2.win 2).blk t).view.emb j) 0) k)
    refine congrArg _ (funext fun a => Fin.ext ?_)
    match a with
    | ⟨0, _⟩ => show win2_0.index t (0 : Fin 2) * 256 + 1 * (j 0).val = win2_2.index t (0 : Fin 2) * 256 + 1 * (j 0).val; omega
    | ⟨1, _⟩ => show win2_0.index t (1 : Fin 2) * 12288 + 1 * k.val = k.val; omega
  · show V c main_v3 (((cfg2.win 1).blk t).view.emb (ix2 k (j 1))) = V c main_v3 (ix2 k ((((cfg2.win 2).blk t).view.emb j) 1))
    refine congrArg _ (funext fun a => Fin.ext ?_)
    match a with
    | ⟨0, _⟩ => show win2_1.index t (0 : Fin 2) * 12288 + 1 * k.val = k.val; omega
    | ⟨1, _⟩ => show win2_1.index t (1 : Fin 2) * 16 + 1 * (j 1).val = win2_2.index t (1 : Fin 2) * 16 + 1 * (j 1).val; omega

/-- An index of the output is in point `t`'s block iff each coordinate is in the block's range on its axis. -/
theorem mem_blk (t : Fin cfg2.N) (i : S12288x16.Idx) :
    i ∈ ((cfg2.win 2).blk t).view.set ↔ ∀ a : Fin 2, win2_2.index t a * S256x16.size a ≤ (i a).val
      ∧ (i a).val < win2_2.index t a * S256x16.size a + S256x16.size a := by
  show i ∈ ((View.whole main_v4).slice (win2_2.rect t)).set ↔ _
  rw [View.set_slice_whole, Rect.mem_set_unit]
  exact Iff.rfl

/-- Every row of the output is in the block of the point its row index divided by 256 names. -/
theorem cover (i : S12288x16.Idx) :
    ∃ t : Fin cfg2.N, (cfg2.win 2).flush t = true ∧ i ∈ ((cfg2.win 2).blk t).view.set := by
  have hi0 : (i 0).val < 12288 := (i 0).isLt
  have hi1 : (i 1).val < 16 := (i 1).isLt
  have hN : cfg2.N = 48 := N_2
  refine ⟨⟨(i 0).val / 256, by rw [hN]; omega⟩, flush2_2 _, ?_⟩
  obtain ⟨e0, e1, e2, e3, e4, e5⟩ := idx_facts ⟨(i 0).val / 256, by rw [hN]; omega⟩
  rw [mem_blk]
  intro a
  match a with
  | ⟨0, _⟩ =>
    show win2_2.index _ (0 : Fin 2) * 256 ≤ (i 0).val ∧ (i 0).val < win2_2.index _ (0 : Fin 2) * 256 + 256
    rw [e4]; show (i 0).val / 256 * 256 ≤ (i 0).val ∧ (i 0).val < (i 0).val / 256 * 256 + 256; omega
  | ⟨1, _⟩ =>
    show win2_2.index _ (1 : Fin 2) * 16 ≤ (i 1).val ∧ (i 1).val < win2_2.index _ (1 : Fin 2) * 16 + 16
    rw [e5]; omega

/-- The output array after the region. -/
theorem final (c : Dev nD) :
    (dat2 (F := Ideal) V c).arrAt 2 cfg2.N = prod (M := 12288) (K := 12288) (N := 16) (V c main_arg1) (V c main_v3) :=
  (dat2 V c).arrAt_eq_of_cover 2 _ (fun t _ => flushed_eq V c t) cover

end Cert.Gcn.Region2

end
-- ==== Proof.Chain.lean ====
/-
  What each region is entered with.

  Between the launch and the result the arrays change hands three times. The first region is entered with the
  features and first weights as launched and the first bias laid as a row `[1, 64]` (a host reshape). The second is
  entered with the adjacency and second weights as launched, the first region's output, and the second bias laid as a
  row `[1, 16]` (another host reshape). The third is entered with the adjacency as launched and the second region's
  output. A host reshape of a vector `[a]` to `[1, a]` keeps the row-major position, so entry `(0, k)` of the row is
  entry `k` of the vector.
-/
import proofs.«176465_j20529943675404_2_alg».proof.Proof.Gen.KernelIdeal.Frame
import proofs.«176465_j20529943675404_2_alg».proof.Proof.Spec
import Idealize.ShloMosaic.Lib.StableHlo.Run
import Idealize.ShloMosaic.Lib.Pipeline.Value

set_option maxRecDepth 16384

noncomputable section

namespace Cert.Gcn.Chain

open Cert.KernelIdeal Cert.KernelIdeal.Gen
open Idealize.ShloMosaic Idealize.ShloMosaic.TcCoe Idealize.SL.Sem Idealize.ShloMosaic.StableHlo
open Idealize.ShloMosaic.ValueIdx Cert.MatProd Cert.Gcn

variable (m : (ℓ : Loc nD τ sig) → Buf (Elt Ideal) ℓ) (ρ : Dev nD → PrngReg)

/-- A vector reshaped to a one-row matrix is the vector laid as that row. -/
theorem row_of_reshape {a : ℕ} (x : Vect a) (h : (⟨1, ![a]⟩ : Shape).ShapeCasts ⟨2, ![1, a]⟩) :
    shapeCast ⟨2, ![1, a]⟩ x h = asRow x := by
  funext i
  refine shapeCast_apply x h i (ix1 (i 1)) ?_
  rw [Shape.rowMajor_val_one, Shape.rowMajor_val_two]
  have h0 : (i 0).val < 1 := (i 0).isLt
  show (i 1).val = (i 0).val * a + (i 1).val
  have h1 : (i 0).val = 0 := by omega
  rw [h1]; omega

/-! ## The first region's entry -/

theorem V1_arg0 (c : Dev nD) : V1 m ρ c main_arg0 = m ((c : Thread nD τ).loc main_arg0) := by
  show StableHlo.after hostOps0 (W0 m ρ c) (Proc.devRef .tc main_arg0) = _
  after_results

theorem V1_arg2 (c : Dev nD) : V1 m ρ c main_arg2 = m ((c : Thread nD τ).loc main_arg2) := by
  show StableHlo.after hostOps0 (W0 m ρ c) (Proc.devRef .tc main_arg2) = _
  after_results

theorem V1_arg1 (c : Dev nD) : V1 m ρ c main_arg1 = m ((c : Thread nD τ).loc main_arg1) := by
  show StableHlo.after hostOps0 (W0 m ρ c) (Proc.devRef .tc main_arg1) = _
  after_results

theorem V1_arg4 (c : Dev nD) : V1 m ρ c main_arg4 = m ((c : Thread nD τ).loc main_arg4) := by
  show StableHlo.after hostOps0 (W0 m ρ c) (Proc.devRef .tc main_arg4) = _
  after_results

theorem V1_arg5 (c : Dev nD) : V1 m ρ c main_arg5 = m ((c : Thread nD τ).loc main_arg5) := by
  show StableHlo.after hostOps0 (W0 m ρ c) (Proc.devRef .tc main_arg5) = _
  after_results

/-- The first bias as the region finds it: laid as a row. -/
theorem V1_v0 (c : Dev nD) : (V1 m ρ c main_v0 : Mat 1 64) = asRow (m ((c : Thread nD τ).loc main_arg3)) := by
  have e : (V1 m ρ c main_v0 : S1x64.Idx → EReal)
      = shapeCast S1x64 (m ((c : Thread nD τ).loc main_arg3)) shapeCasts_S64_S1x64 := by
    show StableHlo.after hostOps0 (W0 m ρ c) (Proc.devRef .tc main_v0) = _
    after_results
    rfl
  exact e.trans (row_of_reshape _ _)

/-! ## The second region's entry -/

theorem V3_arg1 (c : Dev nD) : V3 m ρ c main_arg1 = m ((c : Thread nD τ).loc main_arg1) := by
  show StableHlo.after hostOps1 (W2 m ρ c) (Proc.devRef .tc main_arg1) = _
  after_results
  exact (W2_of_ne m ρ c main_arg1 (by decide)).trans (V1_arg1 m ρ c)

theorem V3_arg4 (c : Dev nD) : V3 m ρ c main_arg4 = m ((c : Thread nD τ).loc main_arg4) := by
  show StableHlo.after hostOps1 (W2 m ρ c) (Proc.devRef .tc main_arg4) = _
  after_results
  exact (W2_of_ne m ρ c main_arg4 (by decide)).trans (V1_arg4 m ρ c)

/-- The first region's output as the second finds it. -/
theorem V3_v1 (c : Dev nD) : V3 m ρ c main_v1 = (dat0 (V1 m ρ) c).arrAt 3 cfg0.N := by
  show StableHlo.after hostOps1 (W2 m ρ c) (Proc.devRef .tc main_v1) = _
  after_results
  exact W2_arr m ρ c 3

/-- The second bias as the region finds it: laid as a row. -/
theorem V3_v2 (c : Dev nD) : (V3 m ρ c main_v2 : Mat 1 16) = asRow (m ((c : Thread nD τ).loc main_arg5)) := by
  have e : (V3 m ρ c main_v2 : S1x16.Idx → EReal)
      = shapeCast S1x16 (W2 m ρ c (Proc.devRef .tc main_arg5)) shapeCasts_S16_S1x16 := by
    show StableHlo.after hostOps1 (W2 m ρ c) (Proc.devRef .tc main_v2) = _
    after_results
    rfl
  rw [e, show W2 m ρ c (Proc.devRef .tc main_arg5) = m ((c : Thread nD τ).loc main_arg5) from
    (W2_of_ne m ρ c main_arg5 (by decide)).trans (V1_arg5 m ρ c)]
  exact row_of_reshape _ _

/-! ## The third region's entry -/

theorem V4_arg1 (c : Dev nD) : V4 m ρ c main_arg1 = m ((c : Thread nD τ).loc main_arg1) :=
  ((W4_arr m ρ c 0).trans (((dat1 (V3 m ρ) c).arrAt_in 0 rfl _).trans (A_eq1 (V3 m ρ) c 0))).trans (V3_arg1 m ρ c)

/-- The second region's output as the third finds it. -/
theorem V4_v3 (c : Dev nD) : V4 m ρ c main_v3 = (dat1 (V3 m ρ) c).arrAt 4 cfg1.N := W4_arr m ρ c 4

end Cert.Gcn.Chain

end
-- ==== Proof.KernelValue.lean ====
/-
  The idealized kernel computes the network.

  The result array is the third region's output: A times what the third region is entered with, which is the second
  region's output `max(A · H, 0) · W2 + b2` with H the first region's output `X · W1 + b1`; each array a region reads
  besides is as launched, the biases laid as rows. Unfolding the three outputs in turn gives the network of the
  launch contents.
-/
import proofs.«176465_j20529943675404_2_alg».proof.Proof.KernelRun
import proofs.«176465_j20529943675404_2_alg».proof.Proof.Region0
import proofs.«176465_j20529943675404_2_alg».proof.Proof.Region1
import proofs.«176465_j20529943675404_2_alg».proof.Proof.Region2
import proofs.«176465_j20529943675404_2_alg».proof.Proof.Chain

set_option maxRecDepth 16384

noncomputable section

namespace Cert.Gcn.Kernel

open Cert.KernelIdeal Cert.KernelIdeal.Gen
open Idealize.ShloMosaic Idealize.ShloMosaic.TcCoe Idealize.SL.Sem
open Idealize.ShloMosaic.ValueIdx Cert.MatProd Cert.Gcn Cert.Gcn.Chain

variable (m : (ℓ : Loc nD τ sig) → Buf (Elt Ideal) ℓ) (ρ : Dev nD → PrngReg)

/-- The network of the launch contents of the six argument arrays. -/
abbrev result (c : Dev nD) : Mat 12288 16 :=
  gcn (m ((c : Thread nD τ).loc main_arg0)) (m ((c : Thread nD τ).loc main_arg1)) (m ((c : Thread nD τ).loc main_arg2))
    (asRow (m ((c : Thread nD τ).loc main_arg3))) (m ((c : Thread nD τ).loc main_arg4)) (asRow (m ((c : Thread nD τ).loc main_arg5)))

/-- What the last region leaves in the result array is the network of the launch contents. -/
theorem result_eq (c : Dev nD) : (dat2 (V4 m ρ) c).arrAt 2 cfg2.N = result m c := by
  rw [Region2.final (V4 m ρ) c, V4_arg1 m ρ c, V4_v3 m ρ c, Region1.final (V3 m ρ) c, V3_arg1 m ρ c, V3_v1 m ρ c,
    V3_arg4 m ρ c, V3_v2 m ρ c, Region0.final (V1 m ρ) c, V1_arg0 m ρ c, V1_arg2 m ρ c, V1_v0 m ρ c]
  rfl

/-- The run: the result array ends at the network of the arguments, the arguments as launched. -/
theorem run : θ_run defs (onTc (τ := τ) (main (F := Ideal))) ⟨m, fun _ => 0, ρ⟩ (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩)
    (Cert.KernelIdeal.Whole.run_main m ρ)

end Cert.Gcn.Kernel

end
-- ==== Proof.RefIsSpec.lean ====
/-
  The reference computes the network.

  The reference is thirteen host operations; read one at a time at an entry they are: X·W1 as a sum over the feature
  index, b1 laid as a row and repeated down the rows, their sum; A times that as a sum over the node index; the
  maximum with a zero splat; the product with W2, b2 laid as a row and repeated, their sum; and A times that. Each
  stage is identified with the matching piece of the network's definition, the last with the whole.
-/
import proofs.«176465_j20529943675404_2_alg».proof.Proof.Gen.ReferenceIdeal.Read
import proofs.«176465_j20529943675404_2_alg».proof.Proof.Spec

noncomputable section

namespace Cert.Gcn.Ref

open Cert.ReferenceIdeal Cert.ReferenceIdeal.Gen Cert.ReferenceIdeal.Read
open Idealize.ShloMosaic Idealize.ShloMosaic.ValueIdx Cert.MatProd Cert.Gcn

variable (x0 : Mat 12288 500) (x1 : Mat 12288 12288) (x2 : Mat 500 64) (x3 : Vect 64) (x4 : Mat 64 16) (x5 : Vect 16)

/-- The features times the first weights. -/
theorem stage0 : val_main_v0 (F := Ideal) x0 x2 = prod x0 x2 := by
  unfold val_main_v0
  simp only [Host.dotGeneral]
  exact dotGeneral_plain_eq none _ x0 x2

/-- The first bias laid as a row. -/
theorem stage1 : val_main_v1 (F := Ideal) x3 = asRow x3 := by
  funext i
  rw [val_main_v1_apply]
  exact congrArg x3 (funext fun a => Fin.ext (by match a with | ⟨0, _⟩ => rfl))

/-- The first layer before aggregation: X·W1 + b1. -/
theorem stage3 : val_main_v3 (F := Ideal) x0 x2 x3 = affine x0 x2 (asRow x3) := by
  funext i
  rw [val_main_v3_apply, val_main_v2_apply, stage0, stage1]
  rfl

/-- Its aggregation over the graph. -/
theorem stage4 : val_main_v4 (F := Ideal) x0 x1 x2 x3 = prod x1 (affine x0 x2 (asRow x3)) := by
  unfold val_main_v4
  rw [stage3]
  simp only [Host.dotGeneral]
  exact dotGeneral_plain_eq none _ x1 _

/-- Clamped below at zero: the zero splat is the zero word, which is 0. -/
theorem stage5 : val_main_v5 (F := Ideal) x0 x1 x2 x3 = relu (prod x1 (affine x0 x2 (asRow x3))) := by
  funext i
  rw [val_main_v5_apply, stage4, val_main_call0_v0_apply, val_main_call0_cst_apply]
  show max _ (Ideal.ofBits .f32 0x00000000#32) = max _ 0
  rw [Ideal.ofBits_zero_f32]

/-- Times the second weights. -/
theorem stage6 : val_main_v6 (F := Ideal) x0 x1 x2 x3 x4 = prod (relu (prod x1 (affine x0 x2 (asRow x3)))) x4 := by
  unfold val_main_v6
  rw [stage5]
  simp only [Host.dotGeneral]
  exact dotGeneral_plain_eq none _ _ x4

/-- The second bias laid as a row. -/
theorem stage7 : val_main_v7 (F := Ideal) x5 = asRow x5 := by
  funext i
  rw [val_main_v7_apply]
  exact congrArg x5 (funext fun a => Fin.ext (by match a with | ⟨0, _⟩ => rfl))

/-- The second layer before aggregation. -/
theorem stage9 : val_main_v9 (F := Ideal) x0 x1 x2 x3 x4 x5 = hidden x1 (affine x0 x2 (asRow x3)) x4 (asRow x5) := by
  funext i
  rw [val_main_v9_apply, val_main_v8_apply, stage6, stage7]
  rfl

/-- The reference's result is the network of its arguments. -/
theorem result_eq : val_main_v10 (F := Ideal) x0 x1 x2 x3 x4 x5 = gcn x0 x1 x2 (asRow x3) x4 (asRow x5) := by
  unfold val_main_v10
  rw [stage9]
  simp only [Host.dotGeneral]
  exact dotGeneral_plain_eq none _ x1 _

end Cert.Gcn.Ref

end
-- ==== Proof.lean ====
/-
  A two-layer graph convolution on a dense weighted graph: the kernel against its reference.

  Both programs compute, over the extended reals and entry by entry,

      out = A · ( max(A · (X · W1 + b1), 0) · W2 + b2 ).

  The reference does so in thirteen host operations. The kernel does so in three pipelined regions: X · W1 + b1 by
  row blocks of 512; max(A · H, 0) · W2 + b2 by row blocks of 256, the contraction over the nodes cut into four
  quarters added one after the other onto a zero accumulator; and A · H2 by row blocks of 256, cut the same way. Over
  the extended reals a change of float format is the identity, a product into a zero accumulator is the plain sum of
  products, and adding four quarter sums onto zero in order is the whole sum by associativity of addition and
  0 + x = x, with no finiteness asked: the precondition is never opened. The ideal pass rewrote nothing, so the
  idealization statement is trivial; the three programs' frames are their runs with the result dropped.
-/
import proofs.«176465_j20529943675404_2_alg».proof.Defs
import proofs.«176465_j20529943675404_2_alg».proof.Proof.Gen.Kernel
import proofs.«176465_j20529943675404_2_alg».proof.Proof.Gen.Kernel.Frame
import proofs.«176465_j20529943675404_2_alg».proof.Proof.Gen.KernelIdeal
import proofs.«176465_j20529943675404_2_alg».proof.Proof.Gen.KernelIdeal.Frame
import proofs.«176465_j20529943675404_2_alg».proof.Proof.Gen.ReferenceIdeal
import proofs.«176465_j20529943675404_2_alg».proof.Proof.Gen.ReferenceIdeal.Run
import proofs.«176465_j20529943675404_2_alg».proof.Proof.Gen.ReferenceIdeal.Read
import proofs.«176465_j20529943675404_2_alg».proof.Proof.Gen.Pre_finite_inputs
import proofs.«176465_j20529943675404_2_alg».proof.Proof.KernelValue
import proofs.«176465_j20529943675404_2_alg».proof.Proof.RefIsSpec
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs, from memories agreeing on the arguments, end with the network of the arguments in their
    result arrays. -/
theorem algebraic : Cert.algebraic_KernelIdeal_ReferenceIdeal := by
  intro m ρ m' ρ' _ hagree
  refine ⟨fun c => Cert.Gcn.Kernel.result m c, Cert.Gcn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  refine ((Cert.ReferenceIdeal.Read.val_main_v10_eq (F := Ideal) _ _ _ _ _ _).trans
    (Cert.Gcn.Ref.result_eq _ _ _ _ _ _)).trans ?_
  rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
